-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S2x2048x2048 .f32) (main_arg1 : FVec F S8192x2048 .f32) (main_arg2 : FVec F S2048x8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S4096x2048 : Shape := ⟨2, ![4096, 2048]⟩
abbrev S4096x8192 : Shape := ⟨2, ![4096, 8192]⟩
abbrev S256x2048 : Shape := ⟨2, ![256, 2048]⟩
abbrev S2048x256 : Shape := ⟨2, ![2048, 256]⟩
abbrev S4096x256 : Shape := ⟨2, ![4096, 256]⟩
abbrev S512x8192 : Shape := ⟨2, ![512, 8192]⟩
abbrev S256x8192 : Shape := ⟨2, ![256, 8192]⟩
abbrev S512x256 : Shape := ⟨2, ![512, 256]⟩

abbrev nBuf : Space → Nat
  | .hbm => 9
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S4096x2048, .f32⟩
  | .hbm, ⟨4, _⟩ => ⟨S4096x2048, .bf16⟩
  | .hbm, ⟨5, _⟩ => ⟨S4096x8192, .bf16⟩
  | .hbm, ⟨6, _⟩ => ⟨S2048x8192, .bf16⟩
  | .hbm, ⟨7, _⟩ => ⟨S4096x2048, .f32⟩
  | .hbm, ⟨8, _⟩ => ⟨S2x2048x2048, .f32⟩
  | .local _ .vmem, ⟨0, _⟩ => ⟨S4096x2048, .bf16⟩
  | .local _ .vmem, ⟨1, _⟩ => ⟨S256x2048, .f32⟩
  | .local _ .vmem, ⟨2, _⟩ => ⟨S256x2048, .f32⟩
  | .local _ .vmem, ⟨3, _⟩ => ⟨S2048x256, .f32⟩
  | .local _ .vmem, ⟨4, _⟩ => ⟨S2048x256, .f32⟩
  | .local _ .vmem, ⟨5, _⟩ => ⟨S4096x256, .bf16⟩
  | .local _ .vmem, ⟨6, _⟩ => ⟨S4096x256, .bf16⟩
  | .local _ .vmem, ⟨7, _⟩ => ⟨S2048x256, .bf16⟩
  | .local _ .vmem, ⟨8, _⟩ => ⟨S2048x256, .bf16⟩
  | .local _ .vmem, ⟨9, _⟩ => ⟨S512x8192, .bf16⟩
  | .local _ .vmem, ⟨10, _⟩ => ⟨S512x8192, .bf16⟩
  | .local _ .vmem, ⟨11, _⟩ => ⟨S256x8192, .bf16⟩
  | .local _ .vmem, ⟨12, _⟩ => ⟨S256x8192, .bf16⟩
  | .local _ .vmem, ⟨13, _⟩ => ⟨S512x256, .f32⟩
  | .local _ .vmem, ⟨14, _⟩ => ⟨S512x256, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_call0_v1_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2x2048x2048_S4096x2048 : S2x2048x2048.ShapeCasts S4096x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S512x256_S512x256_0_0 : ∀ a, (![0, 0] : Fin 2 → Nat) a + S512x256.size a ≤ S512x256.size a
  h_S512x256 : 0 < S512x256.numel
  shapeCasts_S4096x2048_S2x2048x2048 : S4096x2048.ShapeCasts S2x2048x2048
  dot_S4096x2048_S256x2048_S4096x256_1_1_0_0_n_n_wf : DotDims.WF S4096x2048 S256x2048 S4096x256 [1] [1] [0] [0] [] []
  dot_S512x8192_S256x8192_S512x256_1_1_0_0_n_n_wf : DotDims.WF S512x8192 S256x8192 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x2048.size a ≤ S4096x2048.size a
  hwx0_0 : ∀ i : grid0.Coords, EltTy.bits .bf16 = 32 ∨ (Rect.block (s := S4096x2048) S4096x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x8192.size a
  hwx0_2 : ∀ i : grid0.Coords, EltTy.bits .f32 = 32 ∨ (Rect.block (s := S2048x8192) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x8192.size a
  hwx0_3 : ∀ i : grid0.Coords, EltTy.bits .bf16 = 32 ∨ (Rect.block (s := S4096x8192) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x8192.size a
  hwx0_4 : ∀ i : grid0.Coords, EltTy.bits .bf16 = 32 ∨ (Rect.block (s := S2048x8192) S2048x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S4096x8192.size a
  hwx1_0 : ∀ i : grid1.Coords, EltTy.bits .bf16 = 32 ∨ (Rect.block (s := S4096x8192) S512x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S2048x8192.size a
  hwx1_1 : ∀ i : grid1.Coords, EltTy.bits .bf16 = 32 ∨ (Rect.block (s := S2048x8192) S256x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x2048.size a
  hwx1_2 : ∀ i : grid1.Coords, EltTy.bits .f32 = 32 ∨ (Rect.block (s := S4096x2048) S512x256.size (cc1_transform_2 i) (hinb1_2 i)).WholeWords (EltTy.packing .f32)

variable [Facts₀]

def dot_S4096x2048_S256x2048_S4096x256_1_1_0_0_n_n : DotDims S4096x2048 S256x2048 S4096x256 where
  lhsContracting := [1]
  rhsContracting := [1]
  lhsNonContracting := [0]
  rhsNonContracting := [0]
  lhsBatch := []
  rhsBatch := []
  wf := dot_S4096x2048_S256x2048_S4096x256_1_1_0_0_n_n_wf
def dot_S512x8192_S256x8192_S512x256_1_1_0_0_n_n : DotDims S512x8192 S256x8192 S512x256 where
  lhsContracting := [1]
  rhsContracting := [1]
  lhsNonContracting := [0]
  rhsNonContracting := [0]
  lhsBatch := []
  rhsBatch := []
  wf := dot_S512x8192_S256x8192_S512x256_1_1_0_0_n_n_wf

abbrev win0_0 : Pipeline.Window sig grid0 :=
  Pipeline.Window.ofSpec (Memref.whole main_call0_v0) S4096x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_0) S4096x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v1_0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1_1) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S2x2048x8192 : Shape := ⟨3, ![2, 2048, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S2x2048x8192, .f32⟩
  | .hbm, ⟨4, _⟩ => ⟨S2x2048x8192, .f32⟩
  | .hbm, ⟨5, _⟩ => ⟨S2x2048x8192, .f32⟩
  | .hbm, ⟨6, _⟩ => ⟨S_, .f32⟩
  | .hbm, ⟨7, _⟩ => ⟨S2x2048x8192, .f32⟩
  | .hbm, ⟨8, _⟩ => ⟨S2x2048x8192, .f32⟩
  | .hbm, ⟨9, _⟩ => ⟨S2x2048x8192, .f32⟩
  | .hbm, ⟨10, _⟩ => ⟨S_, .f32⟩
  | .hbm, ⟨11, _⟩ => ⟨S2x2048x8192, .f32⟩
  | .hbm, ⟨12, _⟩ => ⟨S2x2048x8192, .f32⟩
  | .hbm, ⟨13, _⟩ => ⟨S2x2048x8192, .f32⟩
  | .hbm, ⟨14, _⟩ => ⟨S_, .f32⟩
  | .hbm, ⟨15, _⟩ => ⟨S2x2048x8192, .f32⟩
  | .hbm, ⟨16, _⟩ => ⟨S2x2048x8192, .f32⟩
  | .hbm, ⟨17, _⟩ => ⟨S_, .f32⟩
  | .hbm, ⟨18, _⟩ => ⟨S2x2048x8192, .f32⟩
  | .hbm, ⟨19, _⟩ => ⟨S2x2048x8192, .f32⟩
  | .hbm, ⟨20, _⟩ => ⟨S2x2048x8192, .f32⟩
  | .hbm, ⟨21, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x2048x8192 : S_.BroadcastsInDim S2x2048x8192 (![] : Fin 0 → Fin S2x2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.NamedRun.lean ====
/-
  The idealized kernel's run with its result named. Every weakly fair execution of the program terminates without a
  fault, the three argument arrays end as launched, and the result array ends at the contents the last host stretch
  leaves in it: the fold of the program's segments (reshape and conversion, the two kernel launches, reshape) over the
  launch memory, read at the result's buffer. The thread state at the end holds every unscoped buffer at that fold, so
  the result is read off it exactly as the arguments are.
-/
import proofs.«166632_g49581102465454_cont_8to1_c_3_4_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v2) = W5 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Named

end
-- ==== Proof.Spec.lean ====
/-
  A feed-forward layer on the extended reals: the rows of `x` go through a linear layer `W1` (8192 outputs from 2048
  inputs, the weights stored one output per row), the tanh form of the GELU, and a second linear layer `W2` (2048
  outputs from 8192 inputs, again one output per row). Everything is an exact sum of products of extended reals; the
  four constants of the GELU are kept as the f32 words both programs spell, and are never evaluated.

  `gelu h = h * (1/2 * (1 + tanh (c * (h + a * (h * (h * h))))))` with `1/2`, `1`, `c`, `a` the four words.
-/
import Idealize.ShloMosaic.PureOps.Ideal
import Idealize.ShloMosaic.Lib.ValueIdx

noncomputable section

namespace Cert.Ffn

open Idealize.ShloMosaic Idealize.ShloMosaic.ValueIdx

/-- The tanh form of the GELU at one extended real, the cube associated to the right. -/
def gelu (h : EReal) : EReal :=
  h * (Ideal.ofBits .f32 0x3F000000#32 * (Ideal.ofBits .f32 0x3F800000#32 +
    Ideal.tanh (Ideal.ofBits .f32 0x3F4C422A#32 * (h + Ideal.ofBits .f32 0x3D372713#32 * (h * (h * h))))))

/-- The same with the cube associated to the left: multiplication of extended reals is commutative. -/
theorem gelu_left (h : EReal) :
    h * (Ideal.ofBits .f32 0x3F000000#32 * (Ideal.ofBits .f32 0x3F800000#32 +
      Ideal.tanh (Ideal.ofBits .f32 0x3F4C422A#32 * (h + Ideal.ofBits .f32 0x3D372713#32 * (h * h * h))))) = gelu h := by
  unfold gelu
  rw [mul_comm (h * h) h]

/-- The hidden activations of `R` rows: entry (r, f) is the GELU of row `r` of `x` against row `f` of `W1`. -/
def hidden {R : Nat} (x : (⟨2, ![R, 2048]⟩ : Shape).Idx → EReal) (w1 : (⟨2, ![8192, 2048]⟩ : Shape).Idx → EReal) :
    (⟨2, ![R, 8192]⟩ : Shape).Idx → EReal :=
  fun j => gelu (∑ k : Fin 2048, x (ix2 (j 0) k) * w1 (ix2 (j 1) k))

/-- The second layer on `R` rows of hidden activations: entry (r, d) is row `r` of `h` against row `d` of `W2`. -/
def project {R : Nat} (h : (⟨2, ![R, 8192]⟩ : Shape).Idx → EReal) (w2 : (⟨2, ![2048, 8192]⟩ : Shape).Idx → EReal) :
    (⟨2, ![R, 2048]⟩ : Shape).Idx → EReal :=
  fun j => ∑ f : Fin 8192, h (ix2 (j 0) f) * w2 (ix2 (j 1) f)

/-- The whole layer on a batch [2, 2048, 2048]: entry (b, s, d). -/
def ffn (x : (⟨3, ![2, 2048, 2048]⟩ : Shape).Idx → EReal) (w1 : (⟨2, ![8192, 2048]⟩ : Shape).Idx → EReal)
    (w2 : (⟨2, ![2048, 8192]⟩ : Shape).Idx → EReal) : (⟨3, ![2, 2048, 2048]⟩ : Shape).Idx → EReal :=
  fun i => ∑ f : Fin 8192, gelu (∑ k : Fin 2048, x (ix3 (i 0) (i 1) k) * w1 (ix2 f k)) * w2 (ix2 (i 2) f)

end Cert.Ffn

end
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.BodyValue.lean ====
/-
  What the two kernel bodies compute, entry by entry, on the extended reals.

  The first body takes the whole [4096, 2048] input and a block of 256 rows of the first weights and stores the GELU of
  their products: entry (p, q) of the stored block is the GELU of row p of the input against row q of the weight block.
  Its second store copies a [2048, 256] block of the second weights unchanged (a change of float format is the
  identity). The second body takes 512 rows of hidden activations and 256 rows of the second weights and stores their
  products: entry (p, q) is row p against row q. A matrix product into the zero accumulator is the plain sum of
  products along the two rows.
-/
import proofs.«166632_g49581102465454_cont_8to1_c_3_4_alg».proof.Proof.Gen.KernelIdeal.Skeleton
import proofs.«166632_g49581102465454_cont_8to1_c_3_4_alg».proof.Proof.Spec
import proofs.«166632_g49581102465454_cont_8to1_c_3_4_alg».proof.Proof.LibDotRows
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The first body's product at an entry: row p of the input against row q of the weight block. -/
theorem product0_apply (x1 : FVec Ideal S256x2048 .f32) (x0 : FVec Ideal S4096x2048 .bf16) (p : Fin 4096) (q : Fin 256) :
    matmul dot_S4096x2048_S256x2048_S4096x256_1_1_0_0_n_n none (shapeCast S4096x2048 x0 shapeCasts_S4096x2048_S4096x2048)
        (truncf .bf16 x1 bitsLt_bf16_f32) (constant S4096x256 .f32 0x00000000#32) (ix2 p q)
      = ∑ k : Fin 2048, x0 (ix2 p k) * x1 (ix2 q k) := by
  rw [shapeCast_self]
  exact DotRows.matmul_zero_apply 4096 2048 256 none x0 (truncf .bf16 x1 bitsLt_bf16_f32) (ix2 p q)

/-- The first body's first store, at entry (p, q): the GELU of that product. -/
theorem pay1_apply (x1 : FVec Ideal S256x2048 .f32) (x0 : FVec Ideal S4096x2048 .bf16) (p : Fin 4096) (q : Fin 256) :
    k0_pay1 (F := Ideal) x1 x0 (ix2 p q) = Cert.Ffn.gelu (∑ k : Fin 2048, x0 (ix2 p k) * x1 (ix2 q k)) := by
  rw [← product0_apply x1 x0 p q]
  rfl

/-- The first body's second store is the weight block it loaded. -/
theorem pay2_eq (x2 : FVec Ideal S2048x256 .f32) : k0_pay2 (F := Ideal) x2 = x2 := rfl

/-- The second body's store at entry (p, q): row p of the activations against row q of the weights. -/
theorem pay_l2_apply (x0 : FVec Ideal S512x8192 .bf16) (x1 : FVec Ideal S256x8192 .bf16) (p : Fin 512) (q : Fin 256) :
    k1_pay1 (F := Ideal) x0 x1 (ix2 p q) = ∑ f : Fin 8192, x0 (ix2 p f) * x1 (ix2 q f) := by
  unfold k1_pay1
  rw [shapeCast_self, shapeCast_self]
  exact DotRows.matmul_zero_apply 512 8192 256 none x0 x1 (ix2 p q)

end Cert.KernelIdeal.Body

end
-- ==== Proof.Region0Value.lean ====
/-
  What the first kernel launch leaves in its two output arrays, as functions of the arrays it found at entry.

  The launch walks 32 grid points. At point t it holds the whole [4096, 2048] input, rows 256 t .. 256 t + 255 of the
  first weights and columns 256 t .. 256 t + 255 of the second weights, and writes back columns 256 t .. 256 t + 255
  of the hidden activations [4096, 8192] and of a copy [2048, 8192] of the second weights. Entry (p, 256 t + q) of the
  activations is the GELU of row p of the input against row 256 t + q of the first weights, which is entry
  (p, 256 t + q) of the hidden layer of Spec.lean; the column blocks tile both arrays, so after the last point the
  first array is the hidden layer of the entry arrays and the second is the second weights, entry by entry.
-/
import proofs.«166632_g49581102465454_cont_8to1_c_3_4_alg».proof.Proof.Gen.KernelIdeal.Frame
import proofs.«166632_g49581102465454_cont_8to1_c_3_4_alg».proof.Proof.BodyValue
import proofs.«166632_g49581102465454_cont_8to1_c_3_4_alg».proof.Proof.Spec
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the input whole, the three weight and output windows at block t
    of their tiled axis. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ t.val < 32 :=
  (by decide +kernel : ∀ t : Fin grid0.N, _)

/-- Every column block is some point's. -/
theorem idx_onto : ∀ q : Fin 32, ∃ t : Fin cfg0.N, t.val = q.val :=
  (by decide +kernel : ∀ q : Fin 32, ∃ t : Fin grid0.N, t.val = q.val)

/-- The input window's block is the whole input. -/
theorem x_block (c : Dev nD) (t : Fin cfg0.N) (p : Fin 4096) (k : Fin 2048) :
    (iblk0 V c 0 t : Vec Ideal S4096x2048 .bf16) (ix2 p k) = (V c main_call0_v0 : S4096x2048.Idx → EReal) (ix2 p k) := by
  obtain ⟨e0, e1, -⟩ := idx_facts t
  unfold iblk0
  rw [View.read_apply]
  show V c main_call0_v0 _ = V c main_call0_v0 _
  refine congrArg _ ?_
  funext a
  apply Fin.ext
  match a with
  | ⟨0, _⟩ => show win0_0.index t (0 : Fin 2) * 4096 + 1 * p.val = p.val; rw [e0]; omega
  | ⟨1, _⟩ => show win0_0.index t (1 : Fin 2) * 2048 + 1 * k.val = k.val; rw [e1]; omega

/-- Row q of the first weights' block at point t is row 256 t + q of the first weights. -/
theorem w1_block (c : Dev nD) (t : Fin cfg0.N) (q : Fin 256) (k : Fin 2048) (f : Fin 8192) (hf : f.val = t.val * 256 + q.val) :
    (iblk0 V c 1 t : Vec Ideal S256x2048 .f32) (ix2 q k) = (V c main_arg1 : S8192x2048.Idx → EReal) (ix2 f k) := by
  obtain ⟨-, -, e2, e3, -⟩ := idx_facts t
  unfold iblk0
  rw [View.read_apply]
  show V c main_arg1 _ = V c main_arg1 _
  refine congrArg _ ?_
  funext a
  apply Fin.ext
  match a with
  | ⟨0, _⟩ => show win0_1.index t (0 : Fin 2) * 256 + 1 * q.val = f.val; rw [e2, hf]; omega
  | ⟨1, _⟩ => show win0_1.index t (1 : Fin 2) * 2048 + 1 * k.val = k.val; rw [e3]; omega

/-- Column q of the second weights' block at point t is column 256 t + q of the second weights. -/
theorem w2_block (c : Dev nD) (t : Fin cfg0.N) (d : Fin 2048) (q : Fin 256) (f : Fin 8192) (hf : f.val = t.val * 256 + q.val) :
    (iblk0 V c 2 t : Vec Ideal S2048x256 .f32) (ix2 d q) = (V c main_arg2 : S2048x8192.Idx → EReal) (ix2 d f) := by
  obtain ⟨-, -, -, -, e4, e5, -⟩ := idx_facts t
  unfold iblk0
  rw [View.read_apply]
  show V c main_arg2 _ = V c main_arg2 _
  refine congrArg _ ?_
  funext a
  apply Fin.ext
  match a with
  | ⟨0, _⟩ => show win0_2.index t (0 : Fin 2) * 2048 + 1 * d.val = d.val; rw [e4]; omega
  | ⟨1, _⟩ => show win0_2.index t (1 : Fin 2) * 256 + 1 * q.val = f.val; rw [e5, hf]; omega

/-- What point t writes back to the activations is block t of the hidden layer of the entry arrays. -/
theorem flushed3_eq (c : Dev nD) (t : Fin cfg0.N) :
    (dat0 V c).flushed 3 t = ((cfg0.win 3).blk t).view.read (Elt Ideal)
      (Cert.Ffn.hidden (R := 4096) (V c main_call0_v0) (V c main_arg1)) := by
  show (cfg0.win 3).cut (grid0.coords t) ((dat0 V c).after 3 t) = _
  rw [after0_3]
  unfold out0_3
  rw [View.canon_unit_zero hz]
  simp only [View.ld_unit_zero (S := S256x2048) hz, View.ld_unit_zero (S := S4096x2048) hz]
  obtain ⟨-, -, -, -, -, -, e6, e7, -, -, ht⟩ := idx_facts t
  funext j
  obtain ⟨p, q, rfl⟩ : ∃ (p : Fin 4096) (q : Fin 256), j = ix2 p q := ⟨j 0, j 1, eq_ix2 j⟩
  have hf : t.val * 256 + q.val < 8192 := by have := q.isLt; omega
  show k0_pay1 (iblk0 V c 1 t) (iblk0 V c 0 t) (ix2 p q)
    = Cert.Ffn.hidden (R := 4096) (V c main_call0_v0) (V c main_arg1) (((cfg0.win 3).blk t).view.emb (ix2 p q))
  rw [Body.pay1_apply]
  have hemb : ((cfg0.win 3).blk t).view.emb (ix2 p q) = (ix2 p (⟨t.val * 256 + q.val, hf⟩ : Fin 8192) : S4096x8192.Idx) := by
    funext a
    apply Fin.ext
    match a with
    | ⟨0, _⟩ => show win0_3.index t (0 : Fin 2) * 4096 + 1 * p.val = p.val; rw [e6]; omega
    | ⟨1, _⟩ => show win0_3.index t (1 : Fin 2) * 256 + 1 * q.val = t.val * 256 + q.val; rw [e7]; omega
  rw [hemb]
  unfold Cert.Ffn.hidden
  refine congrArg Cert.Ffn.gelu (Finset.sum_congr rfl fun k _ => ?_)
  rw [x_block V c t p k, w1_block V c t q k ⟨_, hf⟩ rfl]

/-- What point t writes back to the copy is block t of the second weights. -/
theorem flushed4_eq (c : Dev nD) (t : Fin cfg0.N) :
    (dat0 V c).flushed 4 t = ((cfg0.win 4).blk t).view.read (Elt Ideal) (V c main_arg2 : S2048x8192.Idx → EReal) := by
  show (cfg0.win 4).cut (grid0.coords t) ((dat0 V c).after 4 t) = _
  rw [after0_4]
  unfold out0_4
  rw [View.canon_unit_zero hz]
  simp only [View.ld_unit_zero (S := S2048x256) hz]
  obtain ⟨-, -, -, -, -, -, -, -, e8, e9, ht⟩ := idx_facts t
  funext j
  obtain ⟨d, q, rfl⟩ : ∃ (d : Fin 2048) (q : Fin 256), j = ix2 d q := ⟨j 0, j 1, eq_ix2 j⟩
  have hf : t.val * 256 + q.val < 8192 := by have := q.isLt; omega
  show k0_pay2 (iblk0 V c 2 t) (ix2 d q) = (V c main_arg2 : S2048x8192.Idx → EReal) (((cfg0.win 4).blk t).view.emb (ix2 d q))
  rw [Body.pay2_eq, w2_block V c t d q ⟨_, hf⟩ rfl]
  refine congrArg _ ?_
  funext a
  apply Fin.ext
  match a with
  | ⟨0, _⟩ => show d.val = win0_4.index t (0 : Fin 2) * 2048 + 1 * d.val; rw [e8]; omega
  | ⟨1, _⟩ => show t.val * 256 + q.val = win0_4.index t (1 : Fin 2) * 256 + 1 * q.val; rw [e9]; omega

/-- An entry of the activations is in point t's block iff each coordinate is in the block's range. -/
theorem mem_blk3 (t : Fin cfg0.N) (i : S4096x8192.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_call0_v1_0).slice (win0_3.rect t)).set ↔ _
  rw [View.set_slice_whole, Rect.mem_set_unit]
  exact Iff.rfl

theorem mem_blk4 (t : Fin cfg0.N) (i : S2048x8192.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_call0_v1_1).slice (win0_4.rect t)).set ↔ _
  rw [View.set_slice_whole, Rect.mem_set_unit]
  exact Iff.rfl

/-- The column blocks cover the activations: column j is in block j / 256. -/
theorem cover3 (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 1).val / 256, by omega⟩
  have ht' : t.val = (i 1).val / 256 := ht
  obtain ⟨-, -, -, -, -, -, e6, e7, -⟩ := idx_facts t
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; rw [e6]; omega
  | ⟨1, _⟩ => show win0_3.index t (1 : Fin 2) * 256 ≤ (i 1).val ∧ (i 1).val < win0_3.index t (1 : Fin 2) * 256 + 256; rw [e7]; omega

theorem cover4 (i : S2048x8192.Idx) : ∃ t : Fin cfg0.N, (cfg0.win 4).flush t = true ∧ i ∈ ((cfg0.win 4).blk t).view.set := by
  have hi0 : (i 0).val < 2048 := (i 0).isLt
  have hi1 : (i 1).val < 8192 := (i 1).isLt
  obtain ⟨t, ht⟩ := idx_onto ⟨(i 1).val / 256, by omega⟩
  have ht' : t.val = (i 1).val / 256 := ht
  obtain ⟨-, -, -, -, -, -, -, -, e8, e9, -⟩ := idx_facts t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; rw [e8]; omega
  | ⟨1, _⟩ => show win0_4.index t (1 : Fin 2) * 256 ≤ (i 1).val ∧ (i 1).val < win0_4.index t (1 : Fin 2) * 256 + 256; rw [e9]; omega

/-- After the launch the activations are the hidden layer of the input and first weights as the launch found them. -/
theorem hidden_eq (c : Dev nD) :
    (dat0 V c).arrAt 3 cfg0.N = Cert.Ffn.hidden (R := 4096) (V c main_call0_v0) (V c main_arg1) :=
  (dat0 V c).arrAt_eq_of_cover 3 _ (fun t _ => flushed3_eq V c t) cover3

/-- After the launch the copy holds the second weights as the launch found them. -/
theorem copy_eq (c : Dev nD) :
    (dat0 V c).arrAt 4 cfg0.N = (V c main_arg2 : S2048x8192.Idx → EReal) :=
  (dat0 V c).arrAt_eq_of_cover 4 _ (fun t _ => flushed4_eq V c t) cover4

end Cert.KernelIdeal.Region0

end
-- ==== Proof.Region1Value.lean ====
/-
  What the second kernel launch leaves in its output array, as a function of the arrays it found at entry.

  The launch walks an 8 x 8 grid. At point (i, n) it holds rows 512 i .. 512 i + 511 of the hidden activations
  [4096, 8192] and rows 256 n .. 256 n + 255 of the second weights [2048, 8192], each with all 8192 columns, and writes
  back the [512, 256] tile (i, n) of the result [4096, 2048]: entry (p, q) of the tile is row 512 i + p of the
  activations against row 256 n + q of the weights, summed over all 8192 hidden units in one product. That is entry
  (512 i + p, 256 n + q) of the second layer of Spec.lean, and the 64 tiles cover the result.
-/
import proofs.«166632_g49581102465454_cont_8to1_c_3_4_alg».proof.Proof.Gen.KernelIdeal.Frame
import proofs.«166632_g49581102465454_cont_8to1_c_3_4_alg».proof.Proof.BodyValue
import proofs.«166632_g49581102465454_cont_8to1_c_3_4_alg».proof.Proof.Spec
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at a grid point: the activations at the output tile's row block, the weights at
    its column block, both over all columns. -/
theorem idx_facts : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) < 8 ∧ win1_2.index t (1 : Fin 2) < 8 :=
  (by decide +kernel : ∀ t : Fin grid1.N, _)

/-- Every tile of the result is some point's. -/
theorem idx_onto : ∀ (a b : Fin 8), ∃ t : Fin cfg1.N, win1_2.index t (0 : Fin 2) = a.val ∧ win1_2.index t (1 : Fin 2) = b.val :=
  (by decide +kernel : ∀ (a b : Fin 8), ∃ t : Fin grid1.N, win1_2.index t (0 : Fin 2) = a.val ∧ win1_2.index t (1 : Fin 2) = b.val)

/-- Row p of the activations' block at a point is row (512 times the tile's row index + p) of the activations. -/
theorem h_block (c : Dev nD) (t : Fin cfg1.N) (p : Fin 512) (f : Fin 8192) (r : Fin 4096)
    (hr : r.val = win1_2.index t (0 : Fin 2) * 512 + p.val) :
    (iblk1 V c 0 t : Vec Ideal S512x8192 .bf16) (ix2 p f) = (V c main_call0_v1_0 : S4096x8192.Idx → EReal) (ix2 r f) := by
  obtain ⟨e0, e1, -⟩ := idx_facts t
  unfold iblk1
  rw [View.read_apply]
  show V c main_call0_v1_0 _ = V c main_call0_v1_0 _
  refine congrArg _ ?_
  funext a
  apply Fin.ext
  match a with
  | ⟨0, _⟩ => show win1_0.index t (0 : Fin 2) * 512 + 1 * p.val = r.val; rw [e0, hr]; omega
  | ⟨1, _⟩ => show win1_0.index t (1 : Fin 2) * 8192 + 1 * f.val = f.val; rw [e1]; omega

/-- Row q of the weights' block at a point is row (256 times the tile's column index + q) of the weights. -/
theorem w_block (c : Dev nD) (t : Fin cfg1.N) (q : Fin 256) (f : Fin 8192) (d : Fin 2048)
    (hd : d.val = win1_2.index t (1 : Fin 2) * 256 + q.val) :
    (iblk1 V c 1 t : Vec Ideal S256x8192 .bf16) (ix2 q f) = (V c main_call0_v1_1 : S2048x8192.Idx → EReal) (ix2 d f) := by
  obtain ⟨-, -, e2, e3, -⟩ := idx_facts t
  unfold iblk1
  rw [View.read_apply]
  show V c main_call0_v1_1 _ = V c main_call0_v1_1 _
  refine congrArg _ ?_
  funext a
  apply Fin.ext
  match a with
  | ⟨0, _⟩ => show win1_1.index t (0 : Fin 2) * 256 + 1 * q.val = d.val; rw [e2, hd]; omega
  | ⟨1, _⟩ => show win1_1.index t (1 : Fin 2) * 8192 + 1 * f.val = f.val; rw [e3]; omega

/-- What a point writes back is its tile of the second layer of the entry arrays. -/
theorem flushed2_eq (c : Dev nD) (t : Fin cfg1.N) :
    (dat1 V c).flushed 2 t = ((cfg1.win 2).blk t).view.read (Elt Ideal)
      (Cert.Ffn.project (R := 4096) (V c main_call0_v1_0) (V c main_call0_v1_1)) := by
  show (cfg1.win 2).cut (grid1.coords t) ((dat1 V c).after 2 t) = _
  rw [after1_2]
  unfold out1_2
  rw [View.canon_unit_zero hz]
  simp only [View.ld_unit_zero (S := S512x8192) hz, View.ld_unit_zero (S := S256x8192) hz]
  obtain ⟨-, -, -, -, b0, b1⟩ := idx_facts t
  funext j
  obtain ⟨p, q, rfl⟩ : ∃ (p : Fin 512) (q : Fin 256), j = ix2 p q := ⟨j 0, j 1, eq_ix2 j⟩
  have hr : win1_2.index t (0 : Fin 2) * 512 + p.val < 4096 := by have := p.isLt; omega
  have hd : win1_2.index t (1 : Fin 2) * 256 + q.val < 2048 := by have := q.isLt; omega
  show k1_pay1 (iblk1 V c 0 t) (iblk1 V c 1 t) (ix2 p q)
    = Cert.Ffn.project (R := 4096) (V c main_call0_v1_0) (V c main_call0_v1_1) (((cfg1.win 2).blk t).view.emb (ix2 p q))
  rw [Body.pay_l2_apply]
  have hemb : ((cfg1.win 2).blk t).view.emb (ix2 p q)
      = (ix2 (⟨_, hr⟩ : Fin 4096) (⟨_, hd⟩ : Fin 2048) : S4096x2048.Idx) := by
    funext a
    apply Fin.ext
    match a with
    | ⟨0, _⟩ => show win1_2.index t (0 : Fin 2) * 512 + 1 * p.val = win1_2.index t (0 : Fin 2) * 512 + p.val; omega
    | ⟨1, _⟩ => show win1_2.index t (1 : Fin 2) * 256 + 1 * q.val = win1_2.index t (1 : Fin 2) * 256 + q.val; omega
  rw [hemb]
  unfold Cert.Ffn.project
  refine Finset.sum_congr rfl fun f _ => ?_
  rw [h_block V c t p f ⟨_, hr⟩ rfl, w_block V c t q f ⟨_, hd⟩ rfl]

/-- An entry of the result is in a point's tile iff each coordinate is in the tile's range. -/
theorem mem_blk2 (t : Fin cfg1.N) (i : S4096x2048.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v1).slice (win1_2.rect t)).set ↔ _
  rw [View.set_slice_whole, Rect.mem_set_unit]
  exact Iff.rfl

/-- The tiles cover the result: entry (r, d) is in tile (r / 512, d / 256). -/
theorem cover2 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, h0, h1⟩ := idx_onto ⟨(i 0).val / 512, by omega⟩ ⟨(i 1).val / 256, by omega⟩
  have h0' : win1_2.index t (0 : Fin 2) = (i 0).val / 512 := h0
  have h1' : win1_2.index t (1 : Fin 2) = (i 1).val / 256 := h1
  refine ⟨t, flush1_2 t, ?_⟩
  rw [mem_blk2]
  intro a
  match a with
  | ⟨0, _⟩ => show win1_2.index t (0 : Fin 2) * 512 ≤ (i 0).val ∧ (i 0).val < win1_2.index t (0 : Fin 2) * 512 + 512; rw [h0']; omega
  | ⟨1, _⟩ => show win1_2.index t (1 : Fin 2) * 256 ≤ (i 1).val ∧ (i 1).val < win1_2.index t (1 : Fin 2) * 256 + 256; rw [h1']; omega

/-- After the launch the result is the second layer of the activations and weights as the launch found them. -/
theorem project_eq (c : Dev nD) :
    (dat1 V c).arrAt 2 cfg1.N = Cert.Ffn.project (R := 4096) (V c main_call0_v1_0) (V c main_call0_v1_1) :=
  (dat1 V c).arrAt_eq_of_cover 2 _ (fun t _ => flushed2_eq V c t) cover2

end Cert.KernelIdeal.Region1

end
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.FlatSpec.lean ====
/-
  The feed-forward layer on a batch [2, 2048, 2048] is the layer on its 4096 rows: flatten the two leading axes of the
  input, apply the hidden layer and the second layer to the [4096, 2048] matrix, and split the rows of the result again.
  Entry (b, s, d) of the batch is entry (2048 b + s, d) of the matrix on both sides, so the two are the same sums.
-/
import proofs.«166632_g49581102465454_cont_8to1_c_3_4_alg».proof.Proof.Spec
import proofs.«166632_g49581102465454_cont_8to1_c_3_4_alg».proof.Proof.LibFlattenRows
import Idealize.ShloMosaic.Lib.Pipeline.Value
import Idealize.ShloMosaic.Lib.ValueIdx

noncomputable section

namespace Cert.Ffn

open Idealize.ShloMosaic Idealize.ShloMosaic.ValueIdx

/-- The layer through the flattened rows is the layer on the batch. -/
theorem ffn_flat (x : (⟨3, ![2, 2048, 2048]⟩ : Shape).Idx → EReal) (w1 : (⟨2, ![8192, 2048]⟩ : Shape).Idx → EReal)
    (w2 : (⟨2, ![2048, 8192]⟩ : Shape).Idx → EReal)
    (h1 : (⟨3, ![2, 2048, 2048]⟩ : Shape).ShapeCasts ⟨2, ![4096, 2048]⟩)
    (h2 : (⟨2, ![4096, 2048]⟩ : Shape).ShapeCasts ⟨3, ![2, 2048, 2048]⟩) :
    shapeCast ⟨3, ![2, 2048, 2048]⟩ (project (R := 4096) (hidden (R := 4096) (shapeCast ⟨2, ![4096, 2048]⟩ x h1) w1) w2) h2
      = ffn x w1 w2 := by
  funext i
  obtain ⟨b, s, d, rfl⟩ : ∃ (b : Fin 2) (s : Fin 2048) (d : Fin 2048), i = ix3 b s d := ⟨i 0, i 1, i 2, eq_ix3 i⟩
  have hr : b.val * 2048 + s.val < 4096 := by have := b.isLt; have := s.isLt; omega
  rw [Cert.FlattenRows.unflatten_apply _ h2 b s d (⟨_, hr⟩ : Fin 4096) rfl]
  show ∑ f : Fin 8192, gelu (∑ k : Fin 2048, shapeCast ⟨2, ![4096, 2048]⟩ x h1 (ix2 (⟨_, hr⟩ : Fin 4096) k) * w1 (ix2 f k)) * w2 (ix2 d f)
    = ∑ f : Fin 8192, gelu (∑ k : Fin 2048, x (ix3 b s k) * w1 (ix2 f k)) * w2 (ix2 d f)
  refine Finset.sum_congr rfl fun f _ => ?_
  refine congrArg (fun z => gelu z * w2 (ix2 d f)) (Finset.sum_congr rfl fun k _ => ?_)
  rw [Cert.FlattenRows.flatten_apply x h1 b s k (⟨_, hr⟩ : Fin 4096) rfl]

end Cert.Ffn

end
-- ==== Proof.KernelValue.lean ====
/-
  The idealized kernel's result as one function of its three arguments.

  The program reshapes the batch [2, 2048, 2048] to its 4096 rows (the conversion to the narrow float format that
  follows is the identity on extended reals), launches the first kernel on the rows and the two weight matrices
  (leaving the hidden activations and a copy of the second weights), launches the second kernel on those two arrays
  (leaving the second layer of the activations), and splits the rows of the result again. Reading the result's buffer
  back through these four stages gives the second layer of the hidden layer of the flattened input, reshaped: the
  feed-forward layer of Spec.lean on the batch.
-/
import proofs.«166632_g49581102465454_cont_8to1_c_3_4_alg».proof.Proof.Gen.KernelIdeal.Frame
import proofs.«166632_g49581102465454_cont_8to1_c_3_4_alg».proof.Proof.Region0Value
import proofs.«166632_g49581102465454_cont_8to1_c_3_4_alg».proof.Proof.Region1Value
import proofs.«166632_g49581102465454_cont_8to1_c_3_4_alg».proof.Proof.FlatSpec
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first launch finds the batch flattened to its rows. -/
theorem entry_x (c : Dev nD) :
    (V2 m ρ c main_call0_v0 : S4096x2048.Idx → EReal)
      = shapeCast S4096x2048 (m ((c : Thread nD τ).loc main_arg0) : S2x2048x2048.Idx → EReal) shapeCasts_S2x2048x2048_S4096x2048 := by
  show StableHlo.after hostOps0_1 (StableHlo.after hostOps0 (W0 m ρ c)) (Proc.devRef .tc main_call0_v0) = _
  after_results
  rfl

/-- It finds the first weights as launched. -/
theorem entry_w1 (c : Dev nD) :
    (V2 m ρ c main_arg1 : S8192x2048.Idx → EReal) = m ((c : Thread nD τ).loc main_arg1) := by
  show StableHlo.after hostOps0_1 (StableHlo.after hostOps0 (W0 m ρ c)) (Proc.devRef .tc main_arg1) = _
  after_results

/-- It finds the second weights as launched. -/
theorem entry_w2 (c : Dev nD) :
    (V2 m ρ c main_arg2 : S2048x8192.Idx → EReal) = m ((c : Thread nD τ).loc main_arg2) := by
  show StableHlo.after hostOps0_1 (StableHlo.after hostOps0 (W0 m ρ c)) (Proc.devRef .tc main_arg2) = _
  after_results

/-- The second launch finds the hidden layer of what the first found. -/
theorem entry_h (c : Dev nD) :
    (V3 m ρ c main_call0_v1_0 : S4096x8192.Idx → EReal)
      = Cert.Ffn.hidden (R := 4096) (V2 m ρ c main_call0_v0) (V2 m ρ c main_arg1) :=
  (W3_arr m ρ c 3).trans (Region0.hidden_eq (V2 m ρ) c)

/-- It finds the copy of the second weights. -/
theorem entry_copy (c : Dev nD) :
    (V3 m ρ c main_call0_v1_1 : S2048x8192.Idx → EReal) = (V2 m ρ c main_arg2 : S2048x8192.Idx → EReal) :=
  (W3_arr m ρ c 4).trans (Region0.copy_eq (V2 m ρ) c)

/-- It leaves the second layer of what it found. -/
theorem exit_out (c : Dev nD) :
    (W4 m ρ c (Proc.devRef .tc main_v1) : S4096x2048.Idx → EReal)
      = Cert.Ffn.project (R := 4096) (V3 m ρ c main_call0_v1_0) (V3 m ρ c main_call0_v1_1) :=
  (W4_arr m ρ c 2).trans (Region1.project_eq (V3 m ρ) c)

/-- The result is that array with its rows split into the batch again. -/
theorem result_reshape (c : Dev nD) :
    (W5 m ρ c (Proc.devRef .tc main_v2) : S2x2048x2048.Idx → EReal)
      = shapeCast S2x2048x2048 (W4 m ρ c (Proc.devRef .tc main_v1) : S4096x2048.Idx → EReal) shapeCasts_S4096x2048_S2x2048x2048 := by
  show StableHlo.after hostOps2 (W4 m ρ c) (Proc.devRef .tc main_v2) = _
  after_results
  rfl

/-- The result is the feed-forward layer of the three arguments as launched. -/
theorem result_eq (c : Dev nD) :
    (W5 m ρ c (Proc.devRef .tc main_v2) : S2x2048x2048.Idx → EReal)
      = Cert.Ffn.ffn (m ((c : Thread nD τ).loc main_arg0)) (m ((c : Thread nD τ).loc main_arg1)) (m ((c : Thread nD τ).loc main_arg2)) := by
  rw [result_reshape, exit_out, entry_h, entry_copy, entry_x, entry_w1, entry_w2]
  exact Cert.Ffn.ffn_flat _ _ _ _ _

end Cert.KernelIdeal.Whole

end
-- ==== Proof.RefIsSpec.lean ====
/-
  The reference computes the feed-forward layer of Spec.lean: its last stage, read at an entry (b, s, d), is the sum
  over the 8192 hidden units of the GELU of row (b, s) of the input against row f of the first weights, times entry
  (d, f) of the second weights. The only rearrangement is the cube inside the GELU, which the reference associates to
  the left.
-/
import proofs.«166632_g49581102465454_cont_8to1_c_3_4_alg».proof.Proof.Gen.ReferenceIdeal.Read
import proofs.«166632_g49581102465454_cont_8to1_c_3_4_alg».proof.Proof.Spec

noncomputable section

namespace Cert.ReferenceIdeal.IsFfn

open Cert.ReferenceIdeal Cert.ReferenceIdeal.Read Idealize.ShloMosaic Idealize.ShloMosaic.ValueIdx

/-- The first product's left operand is read at (b, s, k): the row of the hidden unit's entry. -/
theorem lidx0 (i : S2x2048x2048.Idx) (f : Fin 8192) (k : Fin 2048) :
    lidx_main_v0 (lidx_main_v14 i f) k = ix3 (i 0) (i 1) k :=
  funext fun a => Fin.ext (by match a with | ⟨0, _⟩ => rfl | ⟨1, _⟩ => rfl | ⟨2, _⟩ => rfl)

/-- Its right operand is read at (f, k): row f of the first weights. -/
theorem ridx0 (i : S2x2048x2048.Idx) (f : Fin 8192) (k : Fin 2048) :
    ridx_main_v0 (lidx_main_v14 i f) k = ix2 f k :=
  funext fun a => Fin.ext (by match a with | ⟨0, _⟩ => rfl | ⟨1, _⟩ => rfl)

/-- The second product's right operand is read at (d, f). -/
theorem ridx14 (i : S2x2048x2048.Idx) (f : Fin 8192) : ridx_main_v14 i f = ix2 (i 2) f :=
  funext fun a => Fin.ext (by match a with | ⟨0, _⟩ => rfl | ⟨1, _⟩ => rfl)

/-- The activation stage at an entry is the GELU of the first product there. -/
theorem act_apply (x0 : (⟨S2x2048x2048, .f32⟩ : BufTy).Contents (Elt Ideal)) (x1 : (⟨S8192x2048, .f32⟩ : BufTy).Contents (Elt Ideal))
    (j : S2x2048x8192.Idx) :
    val_main_v13 (F := Ideal) x0 x1 j = Cert.Ffn.gelu (val_main_v0 (F := Ideal) x0 x1 j) := by
  rw [val_main_v13_apply, val_main_v12_apply, val_main_v11_apply, val_main_cst_2_apply, val_main_v10_apply, val_main_v9_apply,
    val_main_cst_1_apply, val_main_v8_apply, val_main_v7_apply, val_main_v6_apply, val_main_cst_0_apply, val_main_v5_apply,
    val_main_v4_apply, val_main_v3_apply, val_main_cst_apply, val_main_v2_apply, val_main_v1_apply]
  generalize val_main_v0 (F := Ideal) x0 x1 j = h
  simp only [Ideal.mulf_def, Ideal.addf_def, Ideal.hostUnary_tanh_def, Ideal.ofBits_def]
  exact Cert.Ffn.gelu_left h

/-- The reference's result is the feed-forward layer of its three arguments. -/
theorem result_eq (x0 : (⟨S2x2048x2048, .f32⟩ : BufTy).Contents (Elt Ideal)) (x1 : (⟨S8192x2048, .f32⟩ : BufTy).Contents (Elt Ideal))
    (x2 : (⟨S2048x8192, .f32⟩ : BufTy).Contents (Elt Ideal)) :
    val_main_v14 (F := Ideal) x0 x1 x2 = Cert.Ffn.ffn x0 x1 x2 := by
  funext i
  rw [val_main_v14_apply]
  unfold Cert.Ffn.ffn
  refine Finset.sum_congr rfl fun f _ => ?_
  rw [act_apply, val_main_v0_apply, ridx14]
  simp only [lidx0, ridx0]
  rfl

end Cert.ReferenceIdeal.IsFfn

end
-- ==== Proof.lean ====
/-
  A feed-forward layer (linear, GELU in its tanh form, linear) computed by two tiled matrix-product kernels, against
  the same layer written as two whole contractions.

  On the extended reals both programs compute, at entry (b, s, d) of the result,

      sum over f < 8192 of  gelu (sum over k < 2048 of x (b, s, k) * W1 (f, k)) * W2 (d, f).

  The kernel flattens the batch to 4096 rows; its first launch walks 32 blocks of 256 hidden units and leaves, block by
  block, the hidden activations of all rows and a copy of the matching columns of W2; its second launch walks an 8 x 8
  grid of [512, 256] tiles of the result and forms each tile by one contraction over all 8192 hidden units. A change
  of float format is the identity and a matrix product into the zero accumulator is a plain finite sum, so each tile
  holds exactly the entries of the formula above, the tiles cover their arrays, and splitting the rows of the result
  gives the batch back. The reference is the formula read directly, with the cube inside the GELU associated to the
  other side; multiplication of extended reals commutes. No sum is regrouped and nothing is cancelled or
  distributed, so finiteness of the inputs is never used.

  The three frames come with the runs: the two kernel programs' from their generated frame proofs, the reference's
  from its generated run with the result dropped. The idealization rewrote nothing, so what it preserves is trivial.
-/
import proofs.«166632_g49581102465454_cont_8to1_c_3_4_alg».proof.Defs
import proofs.«166632_g49581102465454_cont_8to1_c_3_4_alg».proof.Proof.Gen.Kernel
import proofs.«166632_g49581102465454_cont_8to1_c_3_4_alg».proof.Proof.Gen.Kernel.Frame
import proofs.«166632_g49581102465454_cont_8to1_c_3_4_alg».proof.Proof.Gen.KernelIdeal
import proofs.«166632_g49581102465454_cont_8to1_c_3_4_alg».proof.Proof.Gen.KernelIdeal.Frame
import proofs.«166632_g49581102465454_cont_8to1_c_3_4_alg».proof.Proof.Gen.ReferenceIdeal
import proofs.«166632_g49581102465454_cont_8to1_c_3_4_alg».proof.Proof.Gen.ReferenceIdeal.Run
import proofs.«166632_g49581102465454_cont_8to1_c_3_4_alg».proof.Proof.Gen.ReferenceIdeal.Read
import proofs.«166632_g49581102465454_cont_8to1_c_3_4_alg».proof.Proof.Gen.Pre_finite_inputs
import proofs.«166632_g49581102465454_cont_8to1_c_3_4_alg».proof.Proof.NamedRun
import proofs.«166632_g49581102465454_cont_8to1_c_3_4_alg».proof.Proof.KernelValue
import proofs.«166632_g49581102465454_cont_8to1_c_3_4_alg».proof.Proof.RefIsSpec
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the feed-forward layer of those arguments. -/
theorem algebraic : Cert.algebraic_KernelIdeal_ReferenceIdeal := by
  intro m ρ m' ρ' _ hagree
  refine ⟨fun c => Cert.Ffn.ffn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.IsFfn.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
